-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x64x256 : S_.BroadcastsInDim S64x64x256 (![] : Fin 0 → Fin S64x64x256.rank)
  reducesTo_S64x64x256_S_d0_1_2 : S64x64x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x256 .f32) (main_arg5 : FVec F S64x256x1 .f32) (main_arg6 : FVec F S64x1 .f32) (main_v13 : IVec S_ 1) (main_v16 : IVec S64x256x256 1) : IVec S_ 1 :=
  let main_c_5 : IVec S_ 1 := constantI S_ 1 1#1
  let main_v17 : IVec S_ 1 := (fun x v => Host.reduce IntOp.andi x v reducesTo_S64x256x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256x1 .f32 := Host.absf main_arg5
  let main_cst_8 : FVec F S_ .f32 := constant S_ .f32 0x7F800000#32
  let main_v25 : FVec F S64x256x1 .f32 := broadcastInDim S64x256x1 ![] bcast_S_S64x256x1 main_cst_8
  let main_v26 : IVec S64x256x1 1 := cmpf .olt main_v24 main_v25
  let main_c_9 : IVec S_ 1 := constantI S_ 1 1#1
  let main_v27 : IVec S_ 1 := (fun x v => Host.reduce IntOp.andi x v reducesTo_S64x256x1_S_d0_1_2 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S64x4096x64 .f32) (main_arg1 : FVec F S64x64x256 .f32) (main_arg2 : FVec F S64x256 .f32) (main_arg3 : FVec F S64x256x256 .f32) (main_arg4 : FVec F S64x256 .f32) (main_arg5 : FVec F S64x256x1 .f32) (main_arg6 : FVec F S64x1 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x64x256 .f32 := Host.absf main_arg1
  let main_cst_0 : FVec F S_ .f32 := constant S_ .f32 0x7F800000#32
  let main_v5 : FVec F S64x64x256 .f32 := broadcastInDim S64x64x256 ![] bcast_S_S64x64x256 main_cst_0
  let main_v6 : IVec S64x64x256 1 := cmpf .olt main_v4 main_v5
  let main_c_1 : IVec S_ 1 := constantI S_ 1 1#1
  let main_v7 : IVec S_ 1 := (fun x v => Host.reduce IntOp.andi x v reducesTo_S64x64x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256x256 .f32 := Host.absf main_arg3
  let main_cst_4 : FVec F S_ .f32 := constant S_ .f32 0x7F800000#32
  let main_v15 : FVec F S64x256x256 .f32 := broadcastInDim S64x256x256 ![] bcast_S_S64x256x256 main_cst_4
  let main_v16 : IVec S64x256x256 1 := cmpf .olt main_v14 main_v15
  fn_part1 (F := F) main_arg4 main_arg5 main_arg6 main_v13 main_v16
-- ==== Kernel.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S64x1x256 : Shape := ⟨3, ![64, 1, 256]⟩
abbrev S64x1x1 : Shape := ⟨3, ![64, 1, 1]⟩
abbrev S64x4096x1 : Shape := ⟨3, ![64, 4096, 1]⟩
abbrev S2x4096x64 : Shape := ⟨3, ![2, 4096, 64]⟩
abbrev S2x64x256 : Shape := ⟨3, ![2, 64, 256]⟩
abbrev S2x1x256 : Shape := ⟨3, ![2, 1, 256]⟩
abbrev S2x256x256 : Shape := ⟨3, ![2, 256, 256]⟩
abbrev S2x1x1 : Shape := ⟨3, ![2, 1, 1]⟩
abbrev S2x4096x1 : Shape := ⟨3, ![2, 4096, 1]⟩
abbrev S1x4096x64 : Shape := ⟨3, ![1, 4096, 64]⟩
abbrev S4096x64 : Shape := ⟨2, ![4096, 64]⟩
abbrev S1x64x256 : Shape := ⟨3, ![1, 64, 256]⟩
abbrev S4096x256 : Shape := ⟨2, ![4096, 256]⟩
abbrev S1x1x256 : Shape := ⟨3, ![1, 1, 256]⟩
abbrev S1x256 : Shape := ⟨2, ![1, 256]⟩
abbrev S1x256x256 : Shape := ⟨3, ![1, 256, 256]⟩
abbrev S256x256 : Shape := ⟨2, ![256, 256]⟩
abbrev S4096 : Shape := ⟨1, ![4096]⟩
abbrev S4096x1 : Shape := ⟨2, ![4096, 1]⟩
abbrev S1x1x1 : Shape := ⟨3, ![1, 1, 1]⟩
abbrev S1x1 : Shape := ⟨2, ![1, 1]⟩
abbrev S1x4096x1 : Shape := ⟨3, ![1, 4096, 1]⟩

abbrev nBuf : Space → Nat
  | .hbm => 12
  | .vmem => 16
  | .smem => 0
  | _ => 0

abbrev bufTy : (tb : Table) → Fin (tcTables nBuf tb) → BufTy
  | .hbm, ⟨0, _⟩ => ⟨S64x4096x64, .f32⟩
  | .hbm, ⟨1, _⟩ => ⟨S64x64x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x1, .f32⟩
  | .hbm, ⟨6, _⟩ => ⟨S64x1, .f32⟩
  | .hbm, ⟨7, _⟩ => ⟨S64x1x256, .f32⟩
  | .hbm, ⟨8, _⟩ => ⟨S64x1x256, .f32⟩
  | .hbm, ⟨9, _⟩ => ⟨S64x1x1, .f32⟩
  | .hbm, ⟨10, _⟩ => ⟨S64x1x256, .f32⟩
  | .hbm, ⟨11, _⟩ => ⟨S64x4096x1, .f32⟩
  | .local _ .vmem, ⟨0, _⟩ => ⟨S2x4096x64, .f32⟩
  | .local _ .vmem, ⟨1, _⟩ => ⟨S2x4096x64, .f32⟩
  | .local _ .vmem, ⟨2, _⟩ => ⟨S2x64x256, .f32⟩
  | .local _ .vmem, ⟨3, _⟩ => ⟨S2x64x256, .f32⟩
  | .local _ .vmem, ⟨4, _⟩ => ⟨S2x1x256, .f32⟩
  | .local _ .vmem, ⟨5, _⟩ => ⟨S2x1x256, .f32⟩
  | .local _ .vmem, ⟨6, _⟩ => ⟨S2x256x256, .f32⟩
  | .local _ .vmem, ⟨7, _⟩ => ⟨S2x256x256, .f32⟩
  | .local _ .vmem, ⟨8, _⟩ => ⟨S2x1x256, .f32⟩
  | .local _ .vmem, ⟨9, _⟩ => ⟨S2x1x256, .f32⟩
  | .local _ .vmem, ⟨10, _⟩ => ⟨S2x1x256, .f32⟩
  | .local _ .vmem, ⟨11, _⟩ => ⟨S2x1x256, .f32⟩
  | .local _ .vmem, ⟨12, _⟩ => ⟨S2x1x1, .f32⟩
  | .local _ .vmem, ⟨13, _⟩ => ⟨S2x1x1, .f32⟩
  | .local _ .vmem, ⟨14, _⟩ => ⟨S2x4096x1, .f32⟩
  | .local _ .vmem, ⟨15, _⟩ => ⟨S2x4096x1, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x256_S64x1x256 : S64x256.ShapeCasts S64x1x256
  shapeCasts_S64x1_S64x1x1 : S64x1.ShapeCasts S64x1x1
  transposes_S64x256x1_S64x1x256_0_2_1 : S64x256x1.Transposes [0, 2, 1] S64x1x256
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  bitsLt_bf16_f32 : FTy.bits .bf16 < FTy.bits .f32
  inb_S2x64x256_S1x64x256_0_0_0 : ∀ a, (![0, 0, 0] : Fin 3 → Nat) a + S1x64x256.size a ≤ S2x64x256.size a
  h_S1x64x256 : 0 < S1x64x256.numel
  shapeCasts_S1x64x256_S64x256 : S1x64x256.ShapeCasts S64x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  broadcasts_S1x256_S4096x256 : S1x256.Broadcasts S4096x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  reduces_S4096x256_S4096 : S4096x256.Reduces [1] S4096
  shapeCasts_S4096_S4096x1 : S4096.ShapeCasts S4096x1
  inb_S2x1x1_S1x1x1_0_0_0 : ∀ a, (![0, 0, 0] : Fin 3 → Nat) a + S1x1x1.size a ≤ S2x1x1.size a
  h_S1x1x1 : 0 < S1x1x1.numel
  shapeCasts_S1x1x1_S1x1 : S1x1x1.ShapeCasts S1x1
  broadcasts_S1x1_S4096x1 : S1x1.Broadcasts S4096x1
  inb_S2x4096x1_S1x4096x1_0_0_0 : ∀ a, (![0, 0, 0] : Fin 3 → Nat) a + S1x4096x1.size a ≤ S2x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  inb_S2x4096x64_S1x4096x64_1_0_0 : ∀ a, (![1, 0, 0] : Fin 3 → Nat) a + S1x4096x64.size a ≤ S2x4096x64.size a
  inb_S2x64x256_S1x64x256_1_0_0 : ∀ a, (![1, 0, 0] : Fin 3 → Nat) a + S1x64x256.size a ≤ S2x64x256.size a
  inb_S2x1x256_S1x1x256_1_0_0 : ∀ a, (![1, 0, 0] : Fin 3 → Nat) a + S1x1x256.size a ≤ S2x1x256.size a
  inb_S2x256x256_S1x256x256_1_0_0 : ∀ a, (![1, 0, 0] : Fin 3 → Nat) a + S1x256x256.size a ≤ S2x256x256.size a
  inb_S2x1x1_S1x1x1_1_0_0 : ∀ a, (![1, 0, 0] : Fin 3 → Nat) a + S1x1x1.size a ≤ S2x1x1.size a
  inb_S2x4096x1_S1x4096x1_1_0_0 : ∀ a, (![1, 0, 0] : Fin 3 → Nat) a + S1x4096x1.size a ≤ S2x4096x1.size a
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x64.size a ≤ S64x4096x64.size a
  hwx0_0 : ∀ i : grid0.Coords, EltTy.bits .f32 = 32 ∨ (Rect.block (s := S64x4096x64) S2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x256.size a ≤ S64x64x256.size a
  hwx0_1 : ∀ i : grid0.Coords, EltTy.bits .f32 = 32 ∨ (Rect.block (s := S64x64x256) S2x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256.size a ≤ S64x1x256.size a
  hwx0_2 : ∀ i : grid0.Coords, EltTy.bits .f32 = 32 ∨ (Rect.block (s := S64x1x256) S2x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S64x256x256.size a
  hwx0_3 : ∀ i : grid0.Coords, EltTy.bits .f32 = 32 ∨ (Rect.block (s := S64x256x256) S2x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x256.size a ≤ S64x1x256.size a
  hwx0_4 : ∀ i : grid0.Coords, EltTy.bits .f32 = 32 ∨ (Rect.block (s := S64x1x256) S2x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x256.size a ≤ S64x1x256.size a
  hwx0_5 : ∀ i : grid0.Coords, EltTy.bits .f32 = 32 ∨ (Rect.block (s := S64x1x256) S2x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x1.size a ≤ S64x1x1.size a
  hwx0_6 : ∀ i : grid0.Coords, EltTy.bits .f32 = 32 ∨ (Rect.block (s := S64x1x1) S2x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096x1.size a ≤ S64x4096x1.size a
  hwx0_7 : ∀ i : grid0.Coords, EltTy.bits .f32 = 32 ∨ (Rect.block (s := S64x4096x1) S2x4096x1.size (cc0_transform_7 i) (hinb0_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2x4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S64x4096x256 : Shape := ⟨3, ![64, 4096, 256]⟩
abbrev S64x1x256 : Shape := ⟨3, ![64, 1, 256]⟩
abbrev S_ : Shape := ⟨0, ![]⟩
abbrev S64x4096x1 : Shape := ⟨3, ![64, 4096, 1]⟩
abbrev S64x1x1 : Shape := ⟨3, ![64, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x64x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x1, .f32⟩
  | .hbm, ⟨6, _⟩ => ⟨S64x1, .f32⟩
  | .hbm, ⟨7, _⟩ => ⟨S64x4096x256, .f32⟩
  | .hbm, ⟨8, _⟩ => ⟨S64x1x256, .f32⟩
  | .hbm, ⟨9, _⟩ => ⟨S64x4096x256, .f32⟩
  | .hbm, ⟨10, _⟩ => ⟨S64x4096x256, .f32⟩
  | .hbm, ⟨11, _⟩ => ⟨S_, .f32⟩
  | .hbm, ⟨12, _⟩ => ⟨S64x4096x256, .f32⟩
  | .hbm, ⟨13, _⟩ => ⟨S64x4096x256, .f32⟩
  | .hbm, ⟨14, _⟩ => ⟨S64x4096x256, .f32⟩
  | .hbm, ⟨15, _⟩ => ⟨S64x1x256, .f32⟩
  | .hbm, ⟨16, _⟩ => ⟨S64x4096x256, .f32⟩
  | .hbm, ⟨17, _⟩ => ⟨S64x4096x256, .f32⟩
  | .hbm, ⟨18, _⟩ => ⟨S_, .f32⟩
  | .hbm, ⟨19, _⟩ => ⟨S64x4096x256, .f32⟩
  | .hbm, ⟨20, _⟩ => ⟨S64x4096x256, .f32⟩
  | .hbm, ⟨21, _⟩ => ⟨S64x4096x1, .f32⟩
  | .hbm, ⟨22, _⟩ => ⟨S64x1x1, .f32⟩
  | .hbm, ⟨23, _⟩ => ⟨S64x4096x1, .f32⟩
  | .hbm, ⟨24, _⟩ => ⟨S64x4096x1, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  dot_S64x4096x64_S64x64x256_S64x4096x256_2_1_1_2_0_0_wf : DotDims.WF S64x4096x64 S64x64x256 S64x4096x256 [2] [1] [1] [2] [0] [0]
  dot_S64x4096x256_S64x256x256_S64x4096x256_2_1_1_2_0_0_wf : DotDims.WF S64x4096x256 S64x256x256 S64x4096x256 [2] [1] [1] [2] [0] [0]
  dot_S64x4096x256_S64x256x1_S64x4096x1_2_1_1_2_0_0_wf : DotDims.WF S64x4096x256 S64x256x1 S64x4096x1 [2] [1] [1] [2] [0] [0]

variable [Facts₀]

def dot_S64x4096x64_S64x64x256_S64x4096x256_2_1_1_2_0_0 : DotDims S64x4096x64 S64x64x256 S64x4096x256 where
  lhsContracting := [2]
  rhsContracting := [1]
  lhsNonContracting := [1]
  rhsNonContracting := [2]
  lhsBatch := [0]
  rhsBatch := [0]
  wf := dot_S64x4096x64_S64x64x256_S64x4096x256_2_1_1_2_0_0_wf
def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf
def dot_S64x4096x256_S64x256x1_S64x4096x1_2_1_1_2_0_0 : DotDims S64x4096x256 S64x256x1 S64x4096x1 where
  lhsContracting := [2]
  rhsContracting := [1]
  lhsNonContracting := [1]
  rhsNonContracting := [2]
  lhsBatch := [0]
  rhsBatch := [0]
  wf := dot_S64x4096x256_S64x256x1_S64x4096x1_2_1_1_2_0_0_wf

class Facts : Prop extends Facts₀ where

variable [Facts]
-- ==== Proof.Spec.lean ====
/-
  The function both programs compute, stated once and over no program: a batch of independent three-layer
  perceptrons. For ONE model, with input rows `x b` (64 features per token), a first dense layer
  `w1, b1` (64 → 256), a second `w2, b2` (256 → 256) and an output row `w3, b3` (256 → 1), token `b` gets

      out b = (∑ k, h2 b k * w3 k) + b3,
      h2 b j = max ((∑ k, h1 b k * w2 k j) + b2 j) 0,
      h1 b j = max ((∑ k, x b k * w1 k j) + b1 j) 0

  on the extended reals. The clamp's zero is kept as the float word both programs print, so it is never evaluated.
  Sums and products of extended reals commute and associate with no finiteness needed, and here nothing more than
  reading both programs index by index is used: the two sides are the same sums of the same products, term by term.
-/
import Idealize.ShloMosaic.PureOps.Ideal
import Idealize.ShloMosaic.Lib.ValueIdx

noncomputable section

namespace Cert.Mlp

open Idealize.ShloMosaic

/-- The float word `0.0` both programs clamp at, as the extended real it denotes. -/
abbrev zeroW : EReal := Ideal.ofBits .f32 0x00000000#32

/-- One unit of a dense layer: the inner product of an input row with a weight column, plus the bias. -/
def dense {K : ℕ} (inp w : Fin K → EReal) (bias : EReal) : EReal := (∑ k : Fin K, inp k * w k) + bias

/-- The rectifier: the larger of a value and the zero word. -/
def relu (y : EReal) : EReal := max y zeroW

/-- The first hidden layer of one model at one token's input row. -/
def hid1 (xrow : Fin 64 → EReal) (w1 : Fin 64 → Fin 256 → EReal) (b1 : Fin 256 → EReal) (j : Fin 256) : EReal :=
  relu (dense xrow (fun k => w1 k j) (b1 j))

/-- The second hidden layer over a first-layer row. -/
def hid2 (h1 : Fin 256 → EReal) (w2 : Fin 256 → Fin 256 → EReal) (b2 : Fin 256 → EReal) (j : Fin 256) : EReal :=
  relu (dense h1 (fun k => w2 k j) (b2 j))

/-- One model's output at token `b`: the third layer's single unit over the second hidden row. -/
def mlp (x : Fin 4096 → Fin 64 → EReal) (w1 : Fin 64 → Fin 256 → EReal) (b1 : Fin 256 → EReal)
    (w2 : Fin 256 → Fin 256 → EReal) (b2 : Fin 256 → EReal) (w3 : Fin 256 → EReal) (b3 : EReal) (b : Fin 4096) : EReal :=
  dense (hid2 (hid1 (x b) w1 b1) w2 b2) w3 b3

open ValueIdx in
/-- The whole result array [64, 4096, 1] of the seven argument arrays: model `m`'s perceptron at token `b`, read off
    the arrays at model `m` (the biases [64, 256] and [64, 1], the output weights [64, 256, 1]). -/
def result (a0 : (⟨3, ![64, 4096, 64]⟩ : Shape).Idx → EReal) (a1 : (⟨3, ![64, 64, 256]⟩ : Shape).Idx → EReal)
    (a2 : (⟨2, ![64, 256]⟩ : Shape).Idx → EReal) (a3 : (⟨3, ![64, 256, 256]⟩ : Shape).Idx → EReal)
    (a4 : (⟨2, ![64, 256]⟩ : Shape).Idx → EReal) (a5 : (⟨3, ![64, 256, 1]⟩ : Shape).Idx → EReal)
    (a6 : (⟨2, ![64, 1]⟩ : Shape).Idx → EReal) (m : Fin 64) (b : Fin 4096) : EReal :=
  mlp (fun b k => a0 (ix3 m b k)) (fun k j => a1 (ix3 m k j)) (fun j => a2 (ix2 m j)) (fun k j => a3 (ix3 m k j))
    (fun j => a4 (ix2 m j)) (fun k => a5 (ix3 m k (0 : Fin 1))) (a6 (ix2 m (0 : Fin 1))) b

open ValueIdx in
/-- The same as an array: index `(m, b, 0)` holds `result … m b`. -/
def resultArr (a0 : (⟨3, ![64, 4096, 64]⟩ : Shape).Idx → EReal) (a1 : (⟨3, ![64, 64, 256]⟩ : Shape).Idx → EReal)
    (a2 : (⟨2, ![64, 256]⟩ : Shape).Idx → EReal) (a3 : (⟨3, ![64, 256, 256]⟩ : Shape).Idx → EReal)
    (a4 : (⟨2, ![64, 256]⟩ : Shape).Idx → EReal) (a5 : (⟨3, ![64, 256, 1]⟩ : Shape).Idx → EReal)
    (a6 : (⟨2, ![64, 1]⟩ : Shape).Idx → EReal) : (⟨3, ![64, 4096, 1]⟩ : Shape).Idx → EReal :=
  fun i => result a0 a1 a2 a3 a4 a5 a6 ⟨(i 0).val, (i 0).isLt⟩ ⟨(i 1).val, (i 1).isLt⟩

open ValueIdx in
theorem resultArr_ix3 (a0 : (⟨3, ![64, 4096, 64]⟩ : Shape).Idx → EReal) (a1 : (⟨3, ![64, 64, 256]⟩ : Shape).Idx → EReal)
    (a2 : (⟨2, ![64, 256]⟩ : Shape).Idx → EReal) (a3 : (⟨3, ![64, 256, 256]⟩ : Shape).Idx → EReal)
    (a4 : (⟨2, ![64, 256]⟩ : Shape).Idx → EReal) (a5 : (⟨3, ![64, 256, 1]⟩ : Shape).Idx → EReal)
    (a6 : (⟨2, ![64, 1]⟩ : Shape).Idx → EReal) (m : Fin 64) (b : Fin 4096) (o : Fin 1) :
    resultArr a0 a1 a2 a3 a4 a5 a6 (ix3 m b o) = result a0 a1 a2 a3 a4 a5 a6 m b := rfl

end Cert.Mlp

end
-- ==== Proof.RefIsSpec.lean ====
/-
  The reference program read index by index: its result array is `Cert.Mlp.resultArr` of its seven arguments.
  Each einsum is a `dot_general` with the model axis as batch axis, read at `(m, b, j)` as the sum over the contracted
  index `k` of left `(m, b, k)` times right `(m, k, j)`; each bias is broadcast from `(m, j)`; `relu` is the maximum with
  the zero word. Layer by layer these are `hid1`, `hid2` and the output unit of the specification.
-/
import proofs.«132995_j82523501625564_2_alg».proof.Proof.Gen.ReferenceIdeal.Read
import proofs.«132995_j82523501625564_2_alg».proof.Proof.Spec

noncomputable section

namespace Cert.ReferenceIdeal.RefValue

open Cert.ReferenceIdeal Cert.ReferenceIdeal.Read Idealize.ShloMosaic Idealize.ShloMosaic.ValueIdx Cert.Mlp

variable (x0 : (⟨S64x4096x64, .f32⟩ : BufTy).Contents (Elt Ideal)) (x1 : (⟨S64x64x256, .f32⟩ : BufTy).Contents (Elt Ideal))
  (x2 : (⟨S64x256, .f32⟩ : BufTy).Contents (Elt Ideal)) (x3 : (⟨S64x256x256, .f32⟩ : BufTy).Contents (Elt Ideal))
  (x4 : (⟨S64x256, .f32⟩ : BufTy).Contents (Elt Ideal)) (x5 : (⟨S64x256x1, .f32⟩ : BufTy).Contents (Elt Ideal))
  (x6 : (⟨S64x1, .f32⟩ : BufTy).Contents (Elt Ideal))

/-- The first hidden layer: `relu (x·W1 + b1)` at `(m, b, j)`. -/
theorem layer1 (m : Fin 64) (b : Fin 4096) (j : Fin 256) :
    val_main_v4 (F := Ideal) x0 x1 x2 (ix3 m b j)
      = hid1 (fun k => x0 (ix3 m b k)) (fun k j => x1 (ix3 m k j)) (fun j => x2 (ix2 m j)) j := by
  have el : ∀ k : Fin 64, lidx_main_v0 (ix3 m b j) k = ix3 m b k := fun k => funext fun a => by
    match a with | ⟨0, _⟩ => rfl | ⟨1, _⟩ => rfl | ⟨2, _⟩ => rfl
  have er : ∀ k : Fin 64, ridx_main_v0 (ix3 m b j) k = ix3 m k j := fun k => funext fun a => by
    match a with | ⟨0, _⟩ => rfl | ⟨1, _⟩ => rfl | ⟨2, _⟩ => rfl
  have eb : idx_main_v1 (idx_main_v2 (ix3 m b j)) = ix2 m j := funext fun a => by
    match a with | ⟨0, _⟩ => rfl | ⟨1, _⟩ => rfl
  rw [val_main_v4_apply, val_main_v3_apply, val_main_v0_apply, val_main_v2_apply, val_main_v1_apply,
    val_main_call0_v0_apply, val_main_call0_cst_apply, eb]
  simp only [el, er]
  rfl

/-- The second hidden layer: `relu (h1·W2 + b2)` at `(m, b, j)`. -/
theorem layer2 (m : Fin 64) (b : Fin 4096) (j : Fin 256) :
    val_main_v9 (F := Ideal) x0 x1 x2 x3 x4 (ix3 m b j)
      = hid2 (hid1 (fun k => x0 (ix3 m b k)) (fun k j => x1 (ix3 m k j)) (fun j => x2 (ix2 m j)))
          (fun k j => x3 (ix3 m k j)) (fun j => x4 (ix2 m j)) j := by
  have el : ∀ k : Fin 256, lidx_main_v5 (ix3 m b j) k = ix3 m b k := fun k => funext fun a => by
    match a with | ⟨0, _⟩ => rfl | ⟨1, _⟩ => rfl | ⟨2, _⟩ => rfl
  have er : ∀ k : Fin 256, ridx_main_v5 (ix3 m b j) k = ix3 m k j := fun k => funext fun a => by
    match a with | ⟨0, _⟩ => rfl | ⟨1, _⟩ => rfl | ⟨2, _⟩ => rfl
  have eb : idx_main_v6 (idx_main_v7 (ix3 m b j)) = ix2 m j := funext fun a => by
    match a with | ⟨0, _⟩ => rfl | ⟨1, _⟩ => rfl
  rw [val_main_v9_apply, val_main_v8_apply, val_main_v5_apply, val_main_v7_apply, val_main_v6_apply,
    val_main_call1_v0_apply, val_main_call1_cst_apply, eb]
  simp only [el, er, layer1]
  rfl

/-- The output unit: `h2·W3 + b3` at `(m, b, 0)`. -/
theorem layer3 (m : Fin 64) (b : Fin 4096) (o : Fin 1) :
    val_main_v13 (F := Ideal) x0 x1 x2 x3 x4 x5 x6 (ix3 m b o) = result x0 x1 x2 x3 x4 x5 x6 m b := by
  obtain rfl : o = 0 := Subsingleton.elim _ _
  have el : ∀ k : Fin 256, lidx_main_v10 (ix3 m b (0 : Fin 1)) k = ix3 m b k := fun k => funext fun a => by
    match a with | ⟨0, _⟩ => rfl | ⟨1, _⟩ => rfl | ⟨2, _⟩ => rfl
  have er : ∀ k : Fin 256, ridx_main_v10 (ix3 m b (0 : Fin 1)) k = ix3 m k (0 : Fin 1) := fun k => funext fun a => by
    match a with | ⟨0, _⟩ => rfl | ⟨1, _⟩ => rfl | ⟨2, _⟩ => rfl
  have eb : idx_main_v11 (idx_main_v12 (ix3 m b (0 : Fin 1))) = ix2 m (0 : Fin 1) := funext fun a => by
    match a with | ⟨0, _⟩ => rfl | ⟨1, _⟩ => rfl
  rw [val_main_v13_apply, val_main_v10_apply, val_main_v12_apply, val_main_v11_apply, eb]
  simp only [el, er, layer2]
  rfl

/-- The reference's result array is the specification's. -/
theorem val_eq : val_main_v13 (F := Ideal) x0 x1 x2 x3 x4 x5 x6 = resultArr x0 x1 x2 x3 x4 x5 x6 := by
  funext i
  obtain ⟨m, b, o, rfl⟩ : ∃ (m : Fin 64) (b : Fin 4096) (o : Fin 1), i = ix3 m b o := ⟨i 0, i 1, i 2, eq_ix3 i⟩
  rw [layer3, resultArr_ix3]

end Cert.ReferenceIdeal.RefValue

end
-- ==== Proof.Payload.lean ====
/-
  The kernel body's arithmetic, read at an index. One grid point handles two models; for each the body loads the
  model's slab of every operand (leading extent 1), and computes on the [4096, ·] matrices under them:

      h1 = max (x ⬝ w1 + b1) 0,   h2 = max (h1 ⬝ w2 + b2) 0,   out = rowsum (h2 * w3row) + b3,

  the two products on the matrix unit into a zero accumulator, the last layer (one output unit) as a product with
  the broadcast weight row summed along the lanes. On the extended reals the changes of float format are the identity,
  a product into a zero accumulator is the plain sum over the contracted index, and a lane reduction is the sum over
  the lane index: so row `b` of the body's stored value is `Cert.Mlp.mlp` of the loaded slabs at token `b`.
-/
import proofs.«132995_j82523501625564_2_alg».proof.Proof.Gen.KernelIdeal.Skeleton
import proofs.«132995_j82523501625564_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Mlp

/-! ## The two matrix products at an index -/

/-- The record of the first product [4096, 64] × [64, 256]. -/
abbrev D1 : DotDims S4096x64 S64x256 S4096x256 := dot_S4096x64_S64x256_S4096x256_1_0_0_1_n_n
/-- The record of the second product [4096, 256] × [256, 256]. -/
abbrev D2 : DotDims S4096x256 S256x256 S4096x256 := dot_S4096x256_S256x256_S4096x256_1_0_0_1_n_n

theorem D1_lhs0 (i : S4096x256.Idx) (q : D1.contr.Idx) : (D1.lhsIdx i q 0).val = (i 0).val := by
  unfold DotDims.lhsIdx
  rw [dif_neg (show ¬(0 : Fin S4096x64.rank) ∈ D1.lhsBatch by decide), dif_pos (show (0 : Fin S4096x64.rank) ∈ D1.lhsNonContracting by decide)]
  rfl
theorem D1_lhs1 (i : S4096x256.Idx) (q : D1.contr.Idx) : (D1.lhsIdx i q 1).val = (q ⟨0, by decide⟩).val :=
  D1.lhsIdx_val_of_single rfl i q
theorem D1_rhs0 (i : S4096x256.Idx) (q : D1.contr.Idx) : (D1.rhsIdx i q 0).val = (q ⟨0, by decide⟩).val :=
  D1.rhsIdx_val_of_single rfl i q
theorem D1_rhs1 (i : S4096x256.Idx) (q : D1.contr.Idx) : (D1.rhsIdx i q 1).val = (i 1).val := by
  unfold DotDims.rhsIdx
  rw [dif_neg (show ¬(1 : Fin S64x256.rank) ∈ D1.rhsBatch by decide), dif_pos (show (1 : Fin S64x256.rank) ∈ D1.rhsNonContracting by decide)]
  rfl

theorem D2_lhs0 (i : S4096x256.Idx) (q : D2.contr.Idx) : (D2.lhsIdx i q 0).val = (i 0).val := by
  unfold DotDims.lhsIdx
  rw [dif_neg (show ¬(0 : Fin S4096x256.rank) ∈ D2.lhsBatch by decide), dif_pos (show (0 : Fin S4096x256.rank) ∈ D2.lhsNonContracting by decide)]
  rfl
theorem D2_lhs1 (i : S4096x256.Idx) (q : D2.contr.Idx) : (D2.lhsIdx i q 1).val = (q ⟨0, by decide⟩).val :=
  D2.lhsIdx_val_of_single rfl i q
theorem D2_rhs0 (i : S4096x256.Idx) (q : D2.contr.Idx) : (D2.rhsIdx i q 0).val = (q ⟨0, by decide⟩).val :=
  D2.rhsIdx_val_of_single rfl i q
theorem D2_rhs1 (i : S4096x256.Idx) (q : D2.contr.Idx) : (D2.rhsIdx i q 1).val = (i 1).val := by
  unfold DotDims.rhsIdx
  rw [dif_neg (show ¬(1 : Fin S256x256.rank) ∈ D2.rhsBatch by decide), dif_pos (show (1 : Fin S256x256.rank) ∈ D2.rhsNonContracting by decide)]
  rfl

/-- The first product into the zero accumulator, at row `b` and column `j`: the sum over the 64 contracted positions. -/
theorem matmul1_apply (lhs : FVec Ideal S4096x64 .bf16) (rhs : FVec Ideal S64x256 .bf16) (b : Fin 4096) (j : Fin 256) :
    matmul D1 none lhs rhs (constant (F := Ideal) S4096x256 .f32 0x00000000#32) (ix2 b j)
      = ∑ k : Fin 64, lhs (ix2 b k) * rhs (ix2 k j) := by
  show FloatOps.matmul D1 none lhs rhs (constant (F := Ideal) S4096x256 .f32 0x00000000#32) (ix2 b j) = _
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 b j) ((contrEquiv1 D1 64 rfl rfl).symm k) = ix2 b k := funext fun a => Fin.ext (by
    match a with
    | ⟨0, _⟩ => exact D1_lhs0 _ _
    | ⟨1, _⟩ => exact (D1_lhs1 _ _).trans hk)
  have er : D1.rhsIdx (ix2 b j) ((contrEquiv1 D1 64 rfl rfl).symm k) = ix2 k j := funext fun a => Fin.ext (by
    match a with
    | ⟨0, _⟩ => exact (D1_rhs0 _ _).trans hk
    | ⟨1, _⟩ => exact D1_rhs1 _ _)
  rw [el, er]

/-- The second product, likewise, over 256 contracted positions. -/
theorem matmul2_apply (lhs : FVec Ideal S4096x256 .bf16) (rhs : FVec Ideal S256x256 .bf16) (b : Fin 4096) (j : Fin 256) :
    matmul D2 none lhs rhs (constant (F := Ideal) S4096x256 .f32 0x00000000#32) (ix2 b j)
      = ∑ k : Fin 256, lhs (ix2 b k) * rhs (ix2 k j) := by
  show FloatOps.matmul D2 none lhs rhs (constant (F := Ideal) S4096x256 .f32 0x00000000#32) (ix2 b j) = _
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 b j) ((contrEquiv1 D2 256 rfl rfl).symm k) = ix2 b k := funext fun a => Fin.ext (by
    match a with
    | ⟨0, _⟩ => exact D2_lhs0 _ _
    | ⟨1, _⟩ => exact (D2_lhs1 _ _).trans hk)
  have er : D2.rhsIdx (ix2 b j) ((contrEquiv1 D2 256 rfl rfl).symm k) = ix2 k j := funext fun a => Fin.ext (by
    match a with
    | ⟨0, _⟩ => exact (D2_rhs0 _ _).trans hk
    | ⟨1, _⟩ => exact D2_rhs1 _ _)
  rw [el, er]

/-! ## The lane reduction and the column casts at an index -/

/-- The sum along the lanes of a [4096, 256] matrix, at row `b`. -/
theorem rowsum_apply (src : FVec Ideal S4096x256 .f32) (b : Fin 4096) :
    multiReduction .add [1] S4096 src 0x00000000#32 reduces_S4096x256_S4096 (.inl rfl) rfl (ix1 b)
      = ∑ k : Fin 256, src (ix2 b k) := by
  refine (Ideal.multiReduction_add_single src 0x00000000#32 reduces_S4096x256_S4096 (.inl rfl) rfl (ix1 b)).trans ?_
  show ∑ k : Fin 256, src (reduces_S4096x256_S4096.lift (ix1 b) k) = _
  refine Finset.sum_congr rfl fun k _ => congrArg src (funext fun a => Fin.ext ?_)
  match a with
  | ⟨0, _⟩ => rfl
  | ⟨1, _⟩ => rfl

/-- A vector [a] viewed as a column [a, 1] reads, at `(i, 0)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (o : Fin 1) : shapeCast ⟨2, ![a, 1]⟩ x h (ix2 i o) = x (ix1 i) :=
  shapeCast_apply x h _ _ (by
    have ho : o.val = 0 := by omega
    rw [Shape.rowMajor_val_two, Shape.rowMajor_val_one]
    show i.val = i.val * 1 + o.val
    rw [ho, Nat.mul_one, Nat.add_zero])

/-! ## The body's three layers, named as the printed operations -/

/-- The first hidden matrix from the loaded slabs of the inputs, the first weights and the first bias. -/
def kh1 (v0 : Vec Ideal S1x4096x64 .f32) (v3 : Vec Ideal S1x64x256 .f32) (v7 : Vec Ideal S1x1x256 .f32) : FVec Ideal S4096x256 .f32 :=
  maximumf (addf (matmul D1 none (truncf .bf16 (shapeCast S4096x64 v0 shapeCasts_S1x4096x64_S4096x64) bitsLt_bf16_f32)
      (truncf .bf16 (shapeCast S64x256 v3 shapeCasts_S1x64x256_S64x256) bitsLt_bf16_f32) (constant (F := Ideal) S4096x256 .f32 0x00000000#32))
      (broadcastTo S4096x256 (shapeCast S1x256 v7 shapeCasts_S1x1x256_S1x256) broadcasts_S1x256_S4096x256))
    (broadcast S4096x256 (Scalar.ofBits (F := Ideal) .f32 0x00000000#32))

/-- The second hidden matrix from the first and the loaded slabs of the second weights and bias. -/
def kh2 (h1 : FVec Ideal S4096x256 .f32) (v14 : Vec Ideal S1x256x256 .f32) (v18 : Vec Ideal S1x1x256 .f32) : FVec Ideal S4096x256 .f32 :=
  maximumf (addf (matmul D2 none (truncf .bf16 h1 bitsLt_bf16_f32)
      (truncf .bf16 (shapeCast S256x256 v14 shapeCasts_S1x256x256_S256x256) bitsLt_bf16_f32) (constant (F := Ideal) S4096x256 .f32 0x00000000#32))
      (broadcastTo S4096x256 (shapeCast S1x256 v18 shapeCasts_S1x1x256_S1x256) broadcasts_S1x256_S4096x256))
    (broadcast S4096x256 (Scalar.ofBits (F := Ideal) .f32 0x00000000#32))

/-- The stored slab from the second hidden matrix and the loaded slabs of the output weights (a row) and bias. -/
def kout (h2 : FVec Ideal S4096x256 .f32) (v24 : Vec Ideal S1x1x256 .f32) (v30 : Vec Ideal S1x1x1 .f32) : FVec Ideal S1x4096x1 .f32 :=
  shapeCast S1x4096x1
    (addf (shapeCast S4096x1 (multiReduction .add [1] S4096
        (mulf h2 (broadcastTo S4096x256 (shapeCast S1x256 v24 shapeCasts_S1x1x256_S1x256) broadcasts_S1x256_S4096x256))
        0x00000000#32 reduces_S4096x256_S4096 (.inl rfl) rfl) shapeCasts_S4096_S4096x1)
      (broadcastTo S4096x1 (shapeCast S1x1 v30 shapeCasts_S1x1x1_S1x1) broadcasts_S1x1_S4096x1))
    shapeCasts_S4096x1_S1x4096x1

/-- The first model's stored value is the three layers of its loads; -/
theorem pay_first (v0 : Vec Ideal S1x4096x64 .f32) (v3 : Vec Ideal S1x64x256 .f32) (v7 : Vec Ideal S1x1x256 .f32)
    (v14 : Vec Ideal S1x256x256 .f32) (v18 v24 : Vec Ideal S1x1x256 .f32) (v30 : Vec Ideal S1x1x1 .f32) :
    k0_pay4 (k0_pay2 v0 v3 v7 v14 v18 v24) (k0_pay3 v30) = kout (kh2 (kh1 v0 v3 v7) v14 v18) v24 v30 := rfl

/-- and so is the second model's, whose payloads the printer cut at other places. -/
theorem pay_second (v37 : Vec Ideal S1x4096x64 .f32) (v40 : Vec Ideal S1x64x256 .f32) (v44 : Vec Ideal S1x1x256 .f32)
    (v51 : Vec Ideal S1x256x256 .f32) (v55 v61 : Vec Ideal S1x1x256 .f32) (v67 : Vec Ideal S1x1x1 .f32) :
    k0_pay1 (k0_pay5 v37 v40 v44 v51 v55 v61) v67 = kout (kh2 (kh1 v37 v40 v44) v51 v55) v61 v67 := rfl

/-! ## Each layer at an index -/

theorem kh1_apply (v0 : Vec Ideal S1x4096x64 .f32) (v3 : Vec Ideal S1x64x256 .f32) (v7 : Vec Ideal S1x1x256 .f32)
    (b : Fin 4096) (j : Fin 256) :
    kh1 v0 v3 v7 (ix2 b j)
      = hid1 (fun k => v0 (ix3 (0 : Fin 1) b k)) (fun k j => v3 (ix3 (0 : Fin 1) k j)) (fun j => v7 (ix3 (0 : Fin 1) (0 : Fin 1) j)) j := by
  unfold kh1
  rw [maximumf_apply, addf_apply, broadcast_apply, matmul1_apply, broadcastTo_1b_ab_apply, shapeCast_1ab_ab_apply]
  simp only [truncf_apply, shapeCast_1ab_ab_apply]
  rfl

theorem kh2_apply (h1 : FVec Ideal S4096x256 .f32) (v14 : Vec Ideal S1x256x256 .f32) (v18 : Vec Ideal S1x1x256 .f32)
    (b : Fin 4096) (j : Fin 256) :
    kh2 h1 v14 v18 (ix2 b j)
      = hid2 (fun k => h1 (ix2 b k)) (fun k j => v14 (ix3 (0 : Fin 1) k j)) (fun j => v18 (ix3 (0 : Fin 1) (0 : Fin 1) j)) j := by
  unfold kh2
  rw [maximumf_apply, addf_apply, broadcast_apply, matmul2_apply, broadcastTo_1b_ab_apply, shapeCast_1ab_ab_apply]
  simp only [truncf_apply, shapeCast_1ab_ab_apply]
  rfl

theorem kout_apply (h2 : FVec Ideal S4096x256 .f32) (v24 : Vec Ideal S1x1x256 .f32) (v30 : Vec Ideal S1x1x1 .f32) (b : Fin 4096) :
    kout h2 v24 v30 (ix3 (0 : Fin 1) b (0 : Fin 1))
      = dense (fun k => h2 (ix2 b k)) (fun k => v24 (ix3 (0 : Fin 1) (0 : Fin 1) k)) (v30 (ix3 (0 : Fin 1) (0 : Fin 1) (0 : Fin 1))) := by
  unfold kout
  rw [shapeCast_ab_1ab_apply, addf_apply, shapeCast_a_a1_apply, rowsum_apply, broadcastTo_1b_ab_apply, shapeCast_1ab_ab_apply]
  simp only [mulf_apply, broadcastTo_1b_ab_apply, shapeCast_1ab_ab_apply]
  rfl

/-- Row `b` of a model's stored slab is the perceptron of its loaded slabs at token `b`. -/
theorem layers_apply (v0 : Vec Ideal S1x4096x64 .f32) (v3 : Vec Ideal S1x64x256 .f32) (v7 : Vec Ideal S1x1x256 .f32)
    (v14 : Vec Ideal S1x256x256 .f32) (v18 v24 : Vec Ideal S1x1x256 .f32) (v30 : Vec Ideal S1x1x1 .f32) (b : Fin 4096) :
    kout (kh2 (kh1 v0 v3 v7) v14 v18) v24 v30 (ix3 (0 : Fin 1) b (0 : Fin 1))
      = mlp (fun b k => v0 (ix3 (0 : Fin 1) b k)) (fun k j => v3 (ix3 (0 : Fin 1) k j)) (fun j => v7 (ix3 (0 : Fin 1) (0 : Fin 1) j))
          (fun k j => v14 (ix3 (0 : Fin 1) k j)) (fun j => v18 (ix3 (0 : Fin 1) (0 : Fin 1) j))
          (fun k => v24 (ix3 (0 : Fin 1) (0 : Fin 1) k)) (v30 (ix3 (0 : Fin 1) (0 : Fin 1) (0 : Fin 1))) b := by
  rw [kout_apply]
  simp only [kh2_apply, kh1_apply]
  rfl

end Cert.KernelIdeal.Body

end
-- ==== Proof.BodyBlock.lean ====
/-
  What one grid point leaves in the output's block, as one function of the point's seven input blocks. A point
  holds TWO models: block row `u` (0 or 1) of every operand is model `u`'s slab, and the body stores, for each
  `u`, the slab computed from the `u`-slabs of the inputs into block row `u` of the output. The two stores tile the
  [2, 4096, 1] block, so the block after the body is, at `(u, b, 0)`, the perceptron of the `u`-slabs at token `b`.
-/
import proofs.«132995_j82523501625564_2_alg».proof.Proof.Gen.KernelIdeal.Frame
import proofs.«132995_j82523501625564_2_alg».proof.Proof.Payload

noncomputable section

namespace Cert.KernelIdeal.Body

open Cert.KernelIdeal Cert.KernelIdeal.Gen Idealize.ShloMosaic Idealize.ShloMosaic.ValueIdx Cert.Mlp

/-! ## A slab of a two-row block -/

/-- Row `u` of a [2, A, B] block through the unit-stride rectangle at offsets `(u, 0, 0)` of sizes [1, A, B]: the
    rectangle's index `(0, p, q)` sits at `(u, p, q)`. -/
theorem slab_emb {A B : ℕ} (u : Fin 2) (off : Fin 3 → ℕ) (hoff : off = ![u.val, 0, 0])
    (inb : ∀ a, off a + (⟨3, ![1, A, B]⟩ : Shape).size a ≤ (⟨3, ![2, A, B]⟩ : Shape).size a) (p : Fin A) (q : Fin B) :
    (Rect.unit (s := ⟨3, ![2, A, B]⟩) off (⟨3, ![1, A, B]⟩ : Shape).size inb).emb (ix3 (0 : Fin 1) p q) = ix3 u p q := by
  subst hoff
  funext a
  apply Fin.ext
  rw [Rect.emb_apply]
  match a with
  | ⟨0, _⟩ => show u.val + 1 * 0 = u.val; omega
  | ⟨1, _⟩ => show 0 + 1 * p.val = p.val; omega
  | ⟨2, _⟩ => show 0 + 1 * q.val = q.val; omega

/-- So a load through it reads, at `(0, p, q)`, the block at `(u, p, q)`. -/
theorem slab_ld {α : Type} {A B : ℕ} (x : (⟨3, ![2, A, B]⟩ : Shape).Idx → α) (u : Fin 2) (off : Fin 3 → ℕ) (hoff : off = ![u.val, 0, 0])
    (inb : ∀ a, off a + (⟨3, ![1, A, B]⟩ : Shape).size a ≤ (⟨3, ![2, A, B]⟩ : Shape).size a) (p : Fin A) (q : Fin B) :
    x ((Rect.unit (s := ⟨3, ![2, A, B]⟩) off (⟨3, ![1, A, B]⟩ : Shape).size inb).idx (ix3 (0 : Fin 1) p q)) = x (ix3 u p q) :=
  congrArg x (slab_emb u off hoff inb p q)

/-! ## The block after the body -/

/-- Model `u` of the point at token `b`, from the point's input blocks. -/
def blockOf (x0 : Vec Ideal S2x4096x64 .f32) (x1 : Vec Ideal S2x64x256 .f32) (x2 : Vec Ideal S2x1x256 .f32)
    (x3 : Vec Ideal S2x256x256 .f32) (x4 x5 : Vec Ideal S2x1x256 .f32) (x6 : Vec Ideal S2x1x1 .f32) (u : Fin 2) (b : Fin 4096) : EReal :=
  mlp (fun b k => x0 (ix3 u b k)) (fun k j => x1 (ix3 u k j)) (fun j => x2 (ix3 u (0 : Fin 1) j)) (fun k j => x3 (ix3 u k j))
    (fun j => x4 (ix3 u (0 : Fin 1) j)) (fun k => x5 (ix3 u (0 : Fin 1) k)) (x6 (ix3 u (0 : Fin 1) (0 : Fin 1))) b

/-- The same as the [2, 4096, 1] block. -/
def blockArr (x0 : Vec Ideal S2x4096x64 .f32) (x1 : Vec Ideal S2x64x256 .f32) (x2 : Vec Ideal S2x1x256 .f32)
    (x3 : Vec Ideal S2x256x256 .f32) (x4 x5 : Vec Ideal S2x1x256 .f32) (x6 : Vec Ideal S2x1x1 .f32) : Vec Ideal S2x4096x1 .f32 :=
  fun y => blockOf x0 x1 x2 x3 x4 x5 x6 ⟨(y 0).val, (y 0).isLt⟩ ⟨(y 1).val, (y 1).isLt⟩

/-- One stored slab agrees with `blockArr`: the slab computed from the `u`-slabs, stored at row `u`. -/
theorem slab_agrees (x0 : Vec Ideal S2x4096x64 .f32) (x1 : Vec Ideal S2x64x256 .f32) (x2 : Vec Ideal S2x1x256 .f32)
    (x3 : Vec Ideal S2x256x256 .f32) (x4 x5 : Vec Ideal S2x1x256 .f32) (x6 : Vec Ideal S2x1x1 .f32) (u : Fin 2)
    (o0 o1 o2 o3 o6 o7 : Fin 3 → ℕ)
    (h0 : o0 = ![u.val, 0, 0]) (h1 : o1 = ![u.val, 0, 0]) (h2 : o2 = ![u.val, 0, 0]) (h3 : o3 = ![u.val, 0, 0])
    (h6 : o6 = ![u.val, 0, 0]) (h7 : o7 = ![u.val, 0, 0])
    (i0 : ∀ a, o0 a + S1x4096x64.size a ≤ S2x4096x64.size a) (i1 : ∀ a, o1 a + S1x64x256.size a ≤ S2x64x256.size a)
    (i2 : ∀ a, o2 a + S1x1x256.size a ≤ S2x1x256.size a) (i3 : ∀ a, o3 a + S1x256x256.size a ≤ S2x256x256.size a)
    (i6 : ∀ a, o6 a + S1x1x1.size a ≤ S2x1x1.size a) (i7 : ∀ a, o7 a + S1x4096x1.size a ≤ S2x4096x1.size a)
    (x : S1x4096x1.Idx) :
    kout (kh2 (kh1 (View.ld x0 (Rect.unit o0 S1x4096x64.size i0)) (View.ld x1 (Rect.unit o1 S1x64x256.size i1))
        (View.ld x2 (Rect.unit o2 S1x1x256.size i2))) (View.ld x3 (Rect.unit o3 S1x256x256.size i3))
        (View.ld x4 (Rect.unit o2 S1x1x256.size i2))) (View.ld x5 (Rect.unit o2 S1x1x256.size i2))
        (View.ld x6 (Rect.unit o6 S1x1x1.size i6)) x
      = blockArr x0 x1 x2 x3 x4 x5 x6 ((Rect.unit (s := S2x4096x1) o7 S1x4096x1.size i7).emb x) := by
  obtain ⟨z, b, z', rfl⟩ : ∃ (z : Fin 1) (b : Fin 4096) (z' : Fin 1), x = ix3 z b z' := ⟨x 0, x 1, x 2, eq_ix3 x⟩
  obtain rfl : z = 0 := Subsingleton.elim _ _
  obtain rfl : z' = 0 := Subsingleton.elim _ _
  rw [layers_apply, slab_emb u o7 h7 i7 b (0 : Fin 1)]
  show _ = blockOf x0 x1 x2 x3 x4 x5 x6 u b
  unfold blockOf
  simp only [slab_ld _ u o0 h0 i0, slab_ld _ u o1 h1 i1, slab_ld _ u o2 h2 i2, slab_ld _ u o3 h3 i3, slab_ld _ u o6 h6 i6]

theorem off0 : (![0, 0, 0] : Fin 3 → ℕ) = ![(0 : Fin 2).val, 0, 0] := rfl
theorem off1 : (![1, 0, 0] : Fin 3 → ℕ) = ![(1 : Fin 2).val, 0, 0] := rfl

/-- The output block after the body is `blockArr` of the input blocks: both stores are slabs of it, and they
    cover the block. -/
theorem out_eq (x0 : Vec Ideal S2x4096x64 .f32) (x1 : Vec Ideal S2x64x256 .f32) (x2 : Vec Ideal S2x1x256 .f32)
    (x3 : Vec Ideal S2x256x256 .f32) (x4 x5 : Vec Ideal S2x1x256 .f32) (x6 : Vec Ideal S2x1x1 .f32) :
    out0_7 x0 x1 x2 x3 x4 x5 x6 = blockArr x0 x1 x2 x3 x4 x5 x6 := by
  funext y
  unfold out0_7
  refine View.canon_apply_of_pieces (blockArr x0 x1 x2 x3 x4 x5 x6) _ ?_ y (cover0_7 _ _ y)
  intro p hp x
  rcases List.mem_cons.mp hp with rfl | hp
  · rw [pay_second]
    exact slab_agrees x0 x1 x2 x3 x4 x5 x6 1 _ _ _ _ _ ![1, 0, 0] off1 off1 off1 off1 off1 off1 _ _ _ _ _ inb_S2x4096x1_S1x4096x1_1_0_0 x
  · obtain rfl := List.mem_singleton.mp hp
    rw [pay_first]
    exact slab_agrees x0 x1 x2 x3 x4 x5 x6 0 _ _ _ _ _ ![0, 0, 0] off0 off0 off0 off0 off0 off0 _ _ _ _ _ inb_S2x4096x1_S1x4096x1_0_0_0 x

end Cert.KernelIdeal.Body

end
-- ==== Proof.Inputs.lean ====
/-
  What each input block of a grid point holds, in terms of the argument arrays. Point `t` of the 32 takes block
  `t` along the model axis of every operand, two models to a block, so row `u` of a block is model `2t + u`. Three
  operands reach the kernel through a host operation: the two hidden biases [64, 256] and the output bias [64, 1]
  reshaped with a unit axis in the middle, and the output weights [64, 256, 1] with their last two axes swapped —
  so `(m, 0, j)` of what the region finds is `(m, j)`, respectively `(m, j, 0)`, of the argument.
-/
import proofs.«132995_j82523501625564_2_alg».proof.Proof.Gen.KernelIdeal.Frame
import Idealize.ShloMosaic.Lib.StableHlo.Run
import Idealize.ShloMosaic.Lib.ValueLayout

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The host operations before the region -/

/-- An [a, b] array reshaped to [a, 1, b] reads, at `(i, 0, j)`, the operand at `(i, j)`. -/
theorem reshape_a1b_apply {α : Type} {a b : ℕ} (x : (⟨2, ![a, b]⟩ : Shape).Idx → α)
    (h : (⟨2, ![a, b]⟩ : Shape).ShapeCasts ⟨3, ![a, 1, b]⟩) (i : Fin a) (o : Fin 1) (j : Fin b) :
    shapeCast ⟨3, ![a, 1, b]⟩ x h (ix3 i o j) = x (ix2 i j) :=
  shapeCast_apply x h _ _ (by
    have ho : o.val = 0 := by omega
    rw [Shape.rowMajor_val_two, Shape.rowMajor_val_three]
    show i.val * b + j.val = (i.val * 1 + o.val) * b + j.val
    rw [ho, Nat.mul_one, Nat.add_zero])

theorem V_v0 (c : Dev nD) : (V m c main_v0 : S64x1x256.Idx → EReal)
    = shapeCast S64x1x256 (m ((c : Thread nD τ).loc main_arg2) : S64x256.Idx → EReal) shapeCasts_S64x256_S64x1x256 := by
  dsimp only [V, hostOps0]
  after_results <;> rfl

theorem V_v1 (c : Dev nD) : (V m c main_v1 : S64x1x256.Idx → EReal)
    = shapeCast S64x1x256 (m ((c : Thread nD τ).loc main_arg4) : S64x256.Idx → EReal) shapeCasts_S64x256_S64x1x256 := by
  dsimp only [V, hostOps0]
  after_results <;> rfl

theorem V_v2 (c : Dev nD) : (V m c main_v2 : S64x1x1.Idx → EReal)
    = shapeCast S64x1x1 (m ((c : Thread nD τ).loc main_arg6) : S64x1.Idx → EReal) shapeCasts_S64x1_S64x1x1 := by
  dsimp only [V, hostOps0]
  after_results <;> rfl

theorem V_v3 (c : Dev nD) : (V m c main_v3 : S64x1x256.Idx → EReal)
    = transpose S64x1x256 [0, 2, 1] (m ((c : Thread nD τ).loc main_arg5) : S64x256x1.Idx → EReal) transposes_S64x256x1_S64x1x256_0_2_1 := by
  dsimp only [V, hostOps0]
  after_results <;> rfl

/-! ## The block indices -/

/-- Every window's block index at point `t` is `(t, 0, 0)` (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## Each input block at an index -/

theorem iblk0_apply (c : Dev nD) (t : Fin cfg0.N) (u : Fin 2) (p : Fin 4096) (q : Fin 64) (mm : Fin 64)
    (hm : mm.val = 2 * t.val + u.val) :
    (iblk m c 0 t : Vec Ideal S2x4096x64 .f32) (ix3 u p q)
      = (m ((c : Thread nD τ).loc main_arg0) : S64x4096x64.Idx → EReal) (ix3 mm p q) := by
  obtain ⟨⟨e0, e1, e2⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 2 + 1 * u.val = mm.val; rw [e0, hm]; omega
  | ⟨1, _⟩ => show win0_0.index t (1 : Fin 3) * 4096 + 1 * p.val = p.val; rw [e1]; omega
  | ⟨2, _⟩ => show win0_0.index t (2 : Fin 3) * 64 + 1 * q.val = q.val; rw [e2]; omega

theorem iblk1_apply (c : Dev nD) (t : Fin cfg0.N) (u : Fin 2) (p : Fin 64) (q : Fin 256) (mm : Fin 64)
    (hm : mm.val = 2 * t.val + u.val) :
    (iblk m c 1 t : Vec Ideal S2x64x256 .f32) (ix3 u p q)
      = (m ((c : Thread nD τ).loc main_arg1) : S64x64x256.Idx → EReal) (ix3 mm p q) := by
  obtain ⟨-, ⟨e0, e1, e2⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 2 + 1 * u.val = mm.val; rw [e0, hm]; omega
  | ⟨1, _⟩ => show win0_1.index t (1 : Fin 3) * 64 + 1 * p.val = p.val; rw [e1]; omega
  | ⟨2, _⟩ => show win0_1.index t (2 : Fin 3) * 256 + 1 * q.val = q.val; rw [e2]; omega

theorem iblk3_apply (c : Dev nD) (t : Fin cfg0.N) (u : Fin 2) (p : Fin 256) (q : Fin 256) (mm : Fin 64)
    (hm : mm.val = 2 * t.val + u.val) :
    (iblk m c 3 t : Vec Ideal S2x256x256 .f32) (ix3 u p q)
      = (m ((c : Thread nD τ).loc main_arg3) : S64x256x256.Idx → EReal) (ix3 mm p q) := by
  obtain ⟨-, -, -, ⟨e0, e1, e2⟩, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 3) * 2 + 1 * u.val = mm.val; rw [e0, hm]; omega
  | ⟨1, _⟩ => show win0_3.index t (1 : Fin 3) * 256 + 1 * p.val = p.val; rw [e1]; omega
  | ⟨2, _⟩ => show win0_3.index t (2 : Fin 3) * 256 + 1 * q.val = q.val; rw [e2]; omega

/-- The first bias block: row `u`, lane `j` is `b1[2t + u, j]`. -/
theorem iblk2_apply (c : Dev nD) (t : Fin cfg0.N) (u : Fin 2) (o : Fin 1) (j : Fin 256) (mm : Fin 64)
    (hm : mm.val = 2 * t.val + u.val) :
    (iblk m c 2 t : Vec Ideal S2x1x256 .f32) (ix3 u o j)
      = (m ((c : Thread nD τ).loc main_arg2) : S64x256.Idx → EReal) (ix2 mm j) := by
  obtain ⟨-, -, ⟨e0, e1, e2⟩, -⟩ := idx_facts t
  unfold iblk
  rw [View.read_apply]
  show (V m c main_v0 : S64x1x256.Idx → EReal) _ = _
  rw [V_v0]
  refine (congrArg _ (funext fun a => Fin.ext ?_)).trans (reshape_a1b_apply _ _ mm o j)
  match a with
  | ⟨0, _⟩ => show win0_2.index t (0 : Fin 3) * 2 + 1 * u.val = mm.val; rw [e0, hm]; omega
  | ⟨1, _⟩ => show win0_2.index t (1 : Fin 3) * 1 + 1 * o.val = o.val; rw [e1]; omega
  | ⟨2, _⟩ => show win0_2.index t (2 : Fin 3) * 256 + 1 * j.val = j.val; rw [e2]; omega

/-- The second bias block likewise. -/
theorem iblk4_apply (c : Dev nD) (t : Fin cfg0.N) (u : Fin 2) (o : Fin 1) (j : Fin 256) (mm : Fin 64)
    (hm : mm.val = 2 * t.val + u.val) :
    (iblk m c 4 t : Vec Ideal S2x1x256 .f32) (ix3 u o j)
      = (m ((c : Thread nD τ).loc main_arg4) : S64x256.Idx → EReal) (ix2 mm j) := by
  obtain ⟨-, -, -, -, ⟨e0, e1, e2⟩, -⟩ := idx_facts t
  unfold iblk
  rw [View.read_apply]
  show (V m c main_v1 : S64x1x256.Idx → EReal) _ = _
  rw [V_v1]
  refine (congrArg _ (funext fun a => Fin.ext ?_)).trans (reshape_a1b_apply _ _ mm o j)
  match a with
  | ⟨0, _⟩ => show win0_4.index t (0 : Fin 3) * 2 + 1 * u.val = mm.val; rw [e0, hm]; omega
  | ⟨1, _⟩ => show win0_4.index t (1 : Fin 3) * 1 + 1 * o.val = o.val; rw [e1]; omega
  | ⟨2, _⟩ => show win0_4.index t (2 : Fin 3) * 256 + 1 * j.val = j.val; rw [e2]; omega

/-- The output weights' block: row `u`, lane `k` is `W3[2t + u, k, 0]`. -/
theorem iblk5_apply (c : Dev nD) (t : Fin cfg0.N) (u : Fin 2) (o : Fin 1) (k : Fin 256) (mm : Fin 64)
    (hm : mm.val = 2 * t.val + u.val) :
    (iblk m c 5 t : Vec Ideal S2x1x256 .f32) (ix3 u o k)
      = (m ((c : Thread nD τ).loc main_arg5) : S64x256x1.Idx → EReal) (ix3 mm k o) := by
  obtain ⟨-, -, -, -, -, ⟨e0, e1, e2⟩, -⟩ := idx_facts t
  unfold iblk
  rw [View.read_apply]
  show (V m c main_v3 : S64x1x256.Idx → EReal) _ = _
  rw [V_v3]
  refine (congrArg _ (funext fun a => Fin.ext ?_)).trans (transpose_ix3_021_apply _ _ mm o k)
  match a with
  | ⟨0, _⟩ => show win0_5.index t (0 : Fin 3) * 2 + 1 * u.val = mm.val; rw [e0, hm]; omega
  | ⟨1, _⟩ => show win0_5.index t (1 : Fin 3) * 1 + 1 * o.val = o.val; rw [e1]; omega
  | ⟨2, _⟩ => show win0_5.index t (2 : Fin 3) * 256 + 1 * k.val = k.val; rw [e2]; omega

/-- The output bias block: row `u` is `b3[2t + u, 0]`. -/
theorem iblk6_apply (c : Dev nD) (t : Fin cfg0.N) (u : Fin 2) (o o' : Fin 1) (mm : Fin 64)
    (hm : mm.val = 2 * t.val + u.val) :
    (iblk m c 6 t : Vec Ideal S2x1x1 .f32) (ix3 u o o')
      = (m ((c : Thread nD τ).loc main_arg6) : S64x1.Idx → EReal) (ix2 mm o') := by
  obtain ⟨-, -, -, -, -, -, ⟨e0, e1, e2⟩, -⟩ := idx_facts t
  unfold iblk
  rw [View.read_apply]
  show (V m c main_v2 : S64x1x1.Idx → EReal) _ = _
  rw [V_v2]
  refine (congrArg _ (funext fun a => Fin.ext ?_)).trans (reshape_a1b_apply _ _ mm o o')
  match a with
  | ⟨0, _⟩ => show win0_6.index t (0 : Fin 3) * 2 + 1 * u.val = mm.val; rw [e0, hm]; omega
  | ⟨1, _⟩ => show win0_6.index t (1 : Fin 3) * 1 + 1 * o.val = o.val; rw [e1]; omega
  | ⟨2, _⟩ => show win0_6.index t (2 : Fin 3) * 1 + 1 * o'.val = o'.val; rw [e2]; omega

end Cert.KernelIdeal.Inputs

end
-- ==== Proof.Result.lean ====
/-
  The kernel's result array after the run. Point `t` writes back block `t` of the output — models `2t` and
  `2t + 1` — and what it writes is the perceptron of those models' rows of the argument arrays (the block after the
  body, with each input block read off the arrays). The 32 blocks tile the [64, 4096, 1] array (model `m` lies in
  block `m / 2`), so the array ends holding `Cert.Mlp.resultArr` of the seven arguments.
-/
import proofs.«132995_j82523501625564_2_alg».proof.Proof.Gen.KernelIdeal.Value
import proofs.«132995_j82523501625564_2_alg».proof.Proof.BodyBlock
import proofs.«132995_j82523501625564_2_alg».proof.Proof.Inputs

noncomputable section

namespace Cert.KernelIdeal.Result

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The specification's array of the arguments as launched. -/
abbrev G (c : Dev nD) : S64x4096x1.Idx → EReal :=
  resultArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Model `u` of point `t` is model `2t + u` of the arrays. -/
theorem block_eq (c : Dev nD) (t : Fin cfg0.N) (u : Fin 2) (b : Fin 4096) (mm : Fin 64) (hm : mm.val = 2 * t.val + u.val) :
    Body.blockOf (iblk m c 0 t) (iblk m c 1 t) (iblk m c 2 t) (iblk m c 3 t) (iblk m c 4 t) (iblk m c 5 t) (iblk m c 6 t) u b
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) mm b := by
  unfold Body.blockOf result
  simp only [Inputs.iblk0_apply m c t u _ _ mm hm, Inputs.iblk1_apply m c t u _ _ mm hm, Inputs.iblk2_apply m c t u _ _ mm hm,
    Inputs.iblk3_apply m c t u _ _ mm hm, Inputs.iblk4_apply m c t u _ _ mm hm, Inputs.iblk5_apply m c t u _ _ mm hm,
    Inputs.iblk6_apply m c t u _ _ mm hm]

/-- What point `t` writes back is block `t` of the specification's array. -/
theorem flushed_eq (c : Dev nD) (t : Fin cfg0.N) :
    (dats m 0 c).flushed 7 t = ((cfg0.win 7).blk t).view.read (Elt Ideal) (G m c) := by
  rw [Value.flushed7, Body.out_eq]
  obtain ⟨-, -, -, -, -, -, -, e0, e1, e2⟩ := Inputs.idx_facts t
  have hN : cfg0.N = 32 := N_0
  have ht := t.isLt
  funext y
  have hy0 : (y 0).val < 2 := (y 0).isLt
  have hy1 : (y 1).val < 4096 := (y 1).isLt
  refine (block_eq m c t ⟨(y 0).val, hy0⟩ ⟨(y 1).val, hy1⟩ ⟨2 * t.val + (y 0).val, by omega⟩ rfl).trans ?_
  rw [View.read_apply]
  show result _ _ _ _ _ _ _ _ _ = resultArr _ _ _ _ _ _ _ (((cfg0.win 7).blk t).view.emb y)
  unfold resultArr
  congr 1 <;> apply Fin.ext
  · show 2 * t.val + (y 0).val = win0_7.index t (0 : Fin 3) * 2 + 1 * (y 0).val
    rw [e0]; omega
  · show (y 1).val = win0_7.index t (1 : Fin 3) * 4096 + 1 * (y 1).val
    rw [e1]; omega

/-- An index of the array is in point `t`'s block iff each coordinate is in the block's range on its axis. -/
theorem mem_blk (t : Fin cfg0.N) (i : S64x4096x1.Idx) :
    i ∈ ((cfg0.win 7).blk t).view.set ↔ ∀ a : Fin 3, win0_7.index t a * S2x4096x1.size a ≤ (i a).val
      ∧ (i a).val < win0_7.index t a * S2x4096x1.size a + S2x4096x1.size a := by
  show i ∈ ((View.whole main_v4).slice (win0_7.rect t)).set ↔ _
  rw [View.set_slice_whole, Rect.mem_set_unit]
  exact Iff.rfl

/-- Every index is in the block of the point that holds its model. -/
theorem cover (i : S64x4096x1.Idx) : ∃ t : Fin cfg0.N, (cfg0.win 7).flush t = true ∧ i ∈ ((cfg0.win 7).blk t).view.set := by
  have hi0 : (i 0).val < 64 := (i 0).isLt
  have hi1 : (i 1).val < 4096 := (i 1).isLt
  have hi2 : (i 2).val < 1 := (i 2).isLt
  have hN : cfg0.N = 32 := N_0
  obtain ⟨t, ht⟩ : ∃ t : Fin cfg0.N, t.val = (i 0).val / 2 := ⟨⟨(i 0).val / 2, by rw [hN]; omega⟩, rfl⟩
  obtain ⟨-, -, -, -, -, -, -, e0, e1, e2⟩ := Inputs.idx_facts t
  refine ⟨t, flush0_7 t, ?_⟩
  rw [mem_blk]
  intro a
  match a with
  | ⟨0, _⟩ =>
    show win0_7.index t (0 : Fin 3) * 2 ≤ (i 0).val ∧ (i 0).val < win0_7.index t (0 : Fin 3) * 2 + 2
    rw [e0, ht]; omega
  | ⟨1, _⟩ =>
    show win0_7.index t (1 : Fin 3) * 4096 ≤ (i 1).val ∧ (i 1).val < win0_7.index t (1 : Fin 3) * 4096 + 4096
    rw [e1]; omega
  | ⟨2, _⟩ =>
    show win0_7.index t (2 : Fin 3) * 1 ≤ (i 2).val ∧ (i 2).val < win0_7.index t (2 : Fin 3) * 1 + 1
    rw [e2]; omega

/-- The result array after the run is the specification's array of the arguments. -/
theorem final (c : Dev nD) : (dats m 0 c).arrAt 7 cfg0.N = G m c :=
  (dats m 0 c).arrAt_eq_of_cover 7 (G m c) (fun t _ => flushed_eq m c t) cover

/-- The run: every weakly fair execution terminates with the result array at `G` and the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.lean ====
/-
  The certificate of the parallel three-layer perceptrons: 64 independent models, each mapping its own 4096 tokens
  through 64 → 256 → 256 → 1 with rectifiers after the first two layers.

  The kernel handles two models per grid point: on each model's slab it forms the two hidden layers by matrix
  products (inputs rounded to bf16 on the way in), and the last layer — one output unit — as a product with the
  weight row summed along the lanes. The reference is three batched einsums with broadcast biases.

  On the extended reals a change of float format is the identity, a matrix product into a zero accumulator is the
  plain sum over the contracted index, and the lane reduction is the sum over the lane index; so both programs
  compute, at model `m` and token `b`,
      (∑ k, h2 k * W3[m, k, 0]) + b3[m, 0],  h2 j = max ((∑ k, h1 k * W2[m, k, j]) + b2[m, j]) 0,
      h1 j = max ((∑ k, x[m, b, k] * W1[m, k, j]) + b1[m, j]) 0
  — the same sums of the same products in the same order, so no law of the extended reals beyond reading both
  sides index by index is needed, and the finiteness of the inputs is not used.

  Modules: `Spec` states that function; `RefIsSpec` reads the reference's run as it; `Payload` reads the kernel
  body's arithmetic at an index; `BodyBlock` the block a grid point leaves; `Inputs` each input block in terms of
  the argument arrays (three of them behind a host reshape or transpose); `Result` the result array after the run.
  The two kernels' frames are the generated ones; the reference's frame is its generated run with the result
  dropped; the ideal pass rewrote nothing, so `preserves` is trivial.
-/
import proofs.«132995_j82523501625564_2_alg».proof.Defs
import proofs.«132995_j82523501625564_2_alg».proof.Proof.Gen.Kernel
import proofs.«132995_j82523501625564_2_alg».proof.Proof.Gen.Kernel.Skeleton
import proofs.«132995_j82523501625564_2_alg».proof.Proof.Gen.Kernel.Launch
import proofs.«132995_j82523501625564_2_alg».proof.Proof.Gen.Kernel.Points
import proofs.«132995_j82523501625564_2_alg».proof.Proof.Gen.Kernel.Frame
import proofs.«132995_j82523501625564_2_alg».proof.Proof.Gen.KernelIdeal
import proofs.«132995_j82523501625564_2_alg».proof.Proof.Gen.KernelIdeal.Skeleton
import proofs.«132995_j82523501625564_2_alg».proof.Proof.Gen.KernelIdeal.Launch
import proofs.«132995_j82523501625564_2_alg».proof.Proof.Gen.KernelIdeal.Points
import proofs.«132995_j82523501625564_2_alg».proof.Proof.Gen.KernelIdeal.Frame
import proofs.«132995_j82523501625564_2_alg».proof.Proof.Gen.KernelIdeal.Value
import proofs.«132995_j82523501625564_2_alg».proof.Proof.Gen.ReferenceIdeal
import proofs.«132995_j82523501625564_2_alg».proof.Proof.Gen.ReferenceIdeal.Run
import proofs.«132995_j82523501625564_2_alg».proof.Proof.Gen.ReferenceIdeal.Read
import proofs.«132995_j82523501625564_2_alg».proof.Proof.Gen.Pre_finite_inputs
import proofs.«132995_j82523501625564_2_alg».proof.Proof.RefIsSpec
import proofs.«132995_j82523501625564_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification's function of the arguments: the
    kernel by its blocks, the reference by its operations; the arguments agree, so the arrays are equal. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.val_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
